-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 22
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S256x512, .f32⟩
  | .hbm, ⟨18, _⟩ => ⟨S512, .f32⟩
  | .hbm, ⟨19, _⟩ => ⟨S1x512, .f32⟩
  | .hbm, ⟨20, _⟩ => ⟨S131072x128, .f32⟩
  | .hbm, ⟨21, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .f32⟩
  | .local _ .vmem, ⟨7, _⟩ => ⟨S1x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128x128_S128x128_S128x128_S128x128_S128x512_d1 : Shape.Concatenates [S128x128, S128x128, S128x128, S128x128] S128x512 1
  concatenates_S128x512_S128x512_S256x512_d0 : Shape.Concatenates [S128x512, S128x512] S256x512 0
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  concatenates_S2048x128_S2048x128_S2048x256_d1 : Shape.Concatenates [S2048x128, S2048x128] S2048x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S131072x512 : Shape := ⟨2, ![131072, 512]⟩
abbrev S1x512 : Shape := ⟨2, ![1, 512]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S512, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S1x512, .f32⟩
  | .hbm, ⟨22, _⟩ => ⟨S131072x512, .f32⟩
  | .hbm, ⟨23, _⟩ => ⟨S131072x512, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.KernelFrame.lean ====
/-
  The program runs to the end, faults nowhere, and leaves its fifteen argument arrays as it found them.

  @main is five host lines (three concatenations of the weight matrices, one of the biases, one reshape) and then ONE
  pipelined region over 64 grid points.  At point t the region stages rows 2048 t .. 2048 t + 2047 of the three batch
  arrays (x, the previous hidden state, the previous cell state), keeps the stacked 256 x 512 weights and the 1 x 512
  bias row resident (both fetched once, at the first point), runs the body, and writes the two result tiles back to
  rows 2048 t .. 2048 t + 2047 of the two result arrays.

  The body loads its five input buffers whole, computes, and stores each result buffer whole; so after the body each
  input buffer still holds its block, and each result buffer holds the body's value for it as a function of the five
  input blocks (`hiddenTile`, `cellTile`: the one whole-buffer store, read back).  That is all the library's launch
  theorem needs: the contents `V` of every buffer when the region is entered (the host lines folded over the launch
  memory; none of them writes an argument), the per-point proof data, and the body's triple.  Its conclusion names
  every array of the region after the run (`run_main`), from which the frame claim is read off (`frame`): an argument
  that is staged is an input window's array, unchanged by the library's own lemma, and an argument that is not staged
  bypasses the region.

  Everything here is stated for any float instance.
-/
import proofs.«159898_j25812753449993_2_alg».proof.Proof.Gen.Kernel.Launch
import proofs.«159898_j25812753449993_2_alg».proof.Proof.Gen.Kernel.Skeleton
import proofs.«159898_j25812753449993_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the five host lines folded over the launch memory. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is its host lines followed by the region, which is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or not
    (the two resident windows are fetched at the first point only, and their block index never moves): for any proof
    data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- A run that ends with every array of the region at what the library computes from the proof data, and every other
    unscoped buffer as the region found it, ends with the fifteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole tile of 2048 rows. -/
abbrev rTile : Rect S2048x128 := Rect.unit (s := S2048x128) ![0, 0] S2048x128.size inb_S2048x128_S2048x128_0_0
/-- The whole stacked weights. -/
abbrev rStack : Rect S256x512 := Rect.unit (s := S256x512) ![0, 0] S256x512.size inb_S256x512_S256x512_0_0
/-- The whole bias row. -/
abbrev rBias : Rect S1x512 := Rect.unit (s := S1x512) ![0, 0] S1x512.size inb_S1x512_S1x512_0_0

/-! ## What the body leaves in the two result buffers -/

/-- The new hidden state's buffer after the body, from the five input blocks (x, h, c, stacked weights, bias row):
    its one whole-buffer store read back. -/
def hiddenTile (x0 x1 x2 : Vec F S2048x128 .f32) (x3 : Vec F S256x512 .f32) (x4 : Vec F S1x512 .f32) : Vec F S2048x128 .f32 :=
  View.canon [⟨rTile, k0_pay3 (View.ld x0 rTile) (View.ld x1 rTile) (View.ld x3 rStack) (View.ld x4 rBias) (View.ld x2 rTile)⟩]

/-- The new cell state's buffer after the body, likewise. -/
def cellTile (x0 x1 x2 : Vec F S2048x128 .f32) (x3 : Vec F S256x512 .f32) (x4 : Vec F S1x512 .f32) : Vec F S2048x128 .f32 :=
  View.canon [⟨rTile, k0_pay2 (View.ld x0 rTile) (View.ld x1 rTile) (View.ld x3 rStack) (View.ld x4 rBias) (View.ld x2 rTile)⟩]

/-- One whole-buffer store covers the buffer. -/
theorem cover_tile (p0 : Vec F S2048x128 .f32) (y : S2048x128.Idx) :
    ∃ pc ∈ ([⟨rTile, p0⟩] : List (View.Piece (Elt F) S2048x128 .f32)), y ∈ pc.1.set :=
  View.cover_of_tiled [⟨rTile, p0⟩] S2048x128.size (by rfl) y

/-! ## The body's triple -/

set_option maxHeartbeats 1000000 in
/-- The body on whole staging buffers, the five inputs at known contents and the two results at anything, runs to a
    state with the inputs as they were and the results at `hiddenTile` and `cellTile` of the inputs. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S2048x128 .f32) (harg6 : arg6.IsWhole)
    (arg7 : Memref sig .tc .vmem S2048x128 .f32) (harg7 : arg7.IsWhole)
    (x0 x1 x2 : Vec F S2048x128 .f32) (x3 : Vec F S256x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenTile x0 x1 x2 x3 x4) ∗ owns (c : Thread nD τ) arg7 fullShare (cellTile x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The region's proof data -/

/-- On core `c`: the arrays as the region finds them; after the body at point `t` each input buffer at its block and
    the two result buffers at `hiddenTile` / `cellTile` of the input blocks; the invariant the untouched scoped rest
    and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile (iblk m c 0 t) (iblk m c 1 t) (iblk m c 2 t) (iblk m c 3 t) (iblk m c 4 t)
    | ⟨6, _⟩ => cellTile (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = hiddenTile (iblk m c 0 t) (iblk m c 1 t) (iblk m c 2 t) (iblk m c 3 t) (iblk m c 4 t) := by dsimp only [dats]
theorem after6 (c : Dev nD) (t : Fin cfg0.N) : (dats m 0 c).after 6 t
    = cellTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and every final state has
    every array of the region at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frame

end
-- ==== Proof.KernelIdealFrame.lean ====
/-
  The program runs to the end, faults nowhere, and leaves its fifteen argument arrays as it found them.

  @main is five host lines (three concatenations of the weight matrices, one of the biases, one reshape) and then ONE
  pipelined region over 64 grid points.  At point t the region stages rows 2048 t .. 2048 t + 2047 of the three batch
  arrays (x, the previous hidden state, the previous cell state), keeps the stacked 256 x 512 weights and the 1 x 512
  bias row resident (both fetched once, at the first point), runs the body, and writes the two result tiles back to
  rows 2048 t .. 2048 t + 2047 of the two result arrays.

  The body loads its five input buffers whole, computes, and stores each result buffer whole; so after the body each
  input buffer still holds its block, and each result buffer holds the body's value for it as a function of the five
  input blocks (`hiddenTile`, `cellTile`: the one whole-buffer store, read back).  That is all the library's launch
  theorem needs: the contents `V` of every buffer when the region is entered (the host lines folded over the launch
  memory; none of them writes an argument), the per-point proof data, and the body's triple.  Its conclusion names
  every array of the region after the run (`run_main`), from which the frame claim is read off (`frame`): an argument
  that is staged is an input window's array, unchanged by the library's own lemma, and an argument that is not staged
  bypasses the region.

  Everything here is stated for any float instance.
-/
import proofs.«159898_j25812753449993_2_alg».proof.Proof.Gen.KernelIdeal.Launch
import proofs.«159898_j25812753449993_2_alg».proof.Proof.Gen.KernelIdeal.Skeleton
import proofs.«159898_j25812753449993_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the five host lines folded over the launch memory. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is its host lines followed by the region, which is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or not
    (the two resident windows are fetched at the first point only, and their block index never moves): for any proof
    data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- A run that ends with every array of the region at what the library computes from the proof data, and every other
    unscoped buffer as the region found it, ends with the fifteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole tile of 2048 rows. -/
abbrev rTile : Rect S2048x128 := Rect.unit (s := S2048x128) ![0, 0] S2048x128.size inb_S2048x128_S2048x128_0_0
/-- The whole stacked weights. -/
abbrev rStack : Rect S256x512 := Rect.unit (s := S256x512) ![0, 0] S256x512.size inb_S256x512_S256x512_0_0
/-- The whole bias row. -/
abbrev rBias : Rect S1x512 := Rect.unit (s := S1x512) ![0, 0] S1x512.size inb_S1x512_S1x512_0_0

/-! ## What the body leaves in the two result buffers -/

/-- The new hidden state's buffer after the body, from the five input blocks (x, h, c, stacked weights, bias row):
    its one whole-buffer store read back. -/
def hiddenTile (x0 x1 x2 : Vec F S2048x128 .f32) (x3 : Vec F S256x512 .f32) (x4 : Vec F S1x512 .f32) : Vec F S2048x128 .f32 :=
  View.canon [⟨rTile, k0_pay3 (View.ld x0 rTile) (View.ld x1 rTile) (View.ld x3 rStack) (View.ld x4 rBias) (View.ld x2 rTile)⟩]

/-- The new cell state's buffer after the body, likewise. -/
def cellTile (x0 x1 x2 : Vec F S2048x128 .f32) (x3 : Vec F S256x512 .f32) (x4 : Vec F S1x512 .f32) : Vec F S2048x128 .f32 :=
  View.canon [⟨rTile, k0_pay2 (View.ld x0 rTile) (View.ld x1 rTile) (View.ld x3 rStack) (View.ld x4 rBias) (View.ld x2 rTile)⟩]

/-- One whole-buffer store covers the buffer. -/
theorem cover_tile (p0 : Vec F S2048x128 .f32) (y : S2048x128.Idx) :
    ∃ pc ∈ ([⟨rTile, p0⟩] : List (View.Piece (Elt F) S2048x128 .f32)), y ∈ pc.1.set :=
  View.cover_of_tiled [⟨rTile, p0⟩] S2048x128.size (by rfl) y

/-! ## The body's triple -/

set_option maxHeartbeats 1000000 in
/-- The body on whole staging buffers, the five inputs at known contents and the two results at anything, runs to a
    state with the inputs as they were and the results at `hiddenTile` and `cellTile` of the inputs. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S2048x128 .f32) (harg6 : arg6.IsWhole)
    (arg7 : Memref sig .tc .vmem S2048x128 .f32) (harg7 : arg7.IsWhole)
    (x0 x1 x2 : Vec F S2048x128 .f32) (x3 : Vec F S256x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenTile x0 x1 x2 x3 x4) ∗ owns (c : Thread nD τ) arg7 fullShare (cellTile x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The region's proof data -/

/-- On core `c`: the arrays as the region finds them; after the body at point `t` each input buffer at its block and
    the two result buffers at `hiddenTile` / `cellTile` of the input blocks; the invariant the untouched scoped rest
    and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile (iblk m c 0 t) (iblk m c 1 t) (iblk m c 2 t) (iblk m c 3 t) (iblk m c 4 t)
    | ⟨6, _⟩ => cellTile (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = hiddenTile (iblk m c 0 t) (iblk m c 1 t) (iblk m c 2 t) (iblk m c 3 t) (iblk m c 4 t) := by dsimp only [dats]
theorem after6 (c : Dev nD) (t : Fin cfg0.N) : (dats m 0 c).after 6 t
    = cellTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and every final state has
    every array of the region at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frame

end
-- ==== Proof.Spec.lean ====
/-
  One step of an LSTM cell, entry by entry, on the extended reals.

  The arguments are a batch of 131072 rows of width 128 (the input x, the previous hidden state h and the
  previous cell state c), eight 128 x 128 weight matrices (w3 .. w6 multiply x, w7 .. w10 multiply h; in each
  group the four belong to the input, forget, cell and output gate, in this order) and four bias vectors of
  length 128 (b11 .. b14, same order).  For a gate with matrices wx, wh and bias b the pre-activation at row r
  and lane q is

      (sum_k x[r,k] * wx[k,q]  +  sum_k h[r,k] * wh[k,q])  +  b[q],

  the new cell state is   sigma(pre_f) * c + sigma(pre_i) * tanh(pre_g)   and the new hidden state is
  sigma(pre_o) * tanh(new cell state), sigma the logistic function.  Everything is stated on the extended reals
  with their own + and *, and with the logistic function and tanh extended to the two infinities, so no
  finiteness is assumed anywhere.

  The second half states the same formulas for one tile of 2048 rows against the STACKED operands: the 256 x 512
  matrix whose upper 128 rows are the four x-matrices side by side and whose lower 128 rows are the four
  h-matrices side by side, and the 1 x 512 row of the four biases end to end.  Gate number g (0 .. 3) owns the
  columns 128 * g .. 128 * g + 127.
-/
import Idealize.ShloMosaic.PureOps.Ideal
import Idealize.ShloMosaic.Lib.ValueIdx

noncomputable section

open scoped BigOperators

namespace Cert.Lstm

open Idealize.ShloMosaic Idealize.ShloMosaic.ValueIdx

/-- The batch arrays: 131072 rows, 128 lanes. -/
abbrev SRows : Shape := ⟨2, ![131072, 128]⟩
/-- One gate's weight matrix. -/
abbrev SGate : Shape := ⟨2, ![128, 128]⟩
/-- One gate's bias. -/
abbrev SBias : Shape := ⟨1, ![128]⟩
/-- One tile of the batch: 2048 rows. -/
abbrev STile : Shape := ⟨2, ![2048, 128]⟩
/-- The stacked weights: x-matrices over h-matrices, the four gates side by side. -/
abbrev SStack : Shape := ⟨2, ![256, 512]⟩
/-- The four biases end to end, as one row. -/
abbrev SBiasRow : Shape := ⟨2, ![1, 512]⟩

/-! ## Whole arrays -/

/-- A gate's pre-activation at row `r`, lane `q`: the two matrix products, added, plus the bias. -/
def gatePre (x h : FVec Ideal SRows .f32) (wx wh : FVec Ideal SGate .f32) (b : FVec Ideal SBias .f32)
    (r : Fin 131072) (q : Fin 128) : EReal :=
  ((∑ k : Fin 128, x (ix2 r k) * wx (ix2 k q)) + (∑ k : Fin 128, h (ix2 r k) * wh (ix2 k q))) + b (ix1 q)

/-- The new cell state at row `r`, lane `q`. -/
def cellAt (x h c : FVec Ideal SRows .f32) (w3 w4 w5 w6 w7 w8 w9 w10 : FVec Ideal SGate .f32)
    (b11 b12 b13 b14 : FVec Ideal SBias .f32) (r : Fin 131072) (q : Fin 128) : EReal :=
  Ideal.logistic (gatePre x h w4 w8 b12 r q) * c (ix2 r q)
    + Ideal.logistic (gatePre x h w3 w7 b11 r q) * Ideal.tanh (gatePre x h w5 w9 b13 r q)

/-- The new hidden state at row `r`, lane `q`. -/
def hiddenAt (x h c : FVec Ideal SRows .f32) (w3 w4 w5 w6 w7 w8 w9 w10 : FVec Ideal SGate .f32)
    (b11 b12 b13 b14 : FVec Ideal SBias .f32) (r : Fin 131072) (q : Fin 128) : EReal :=
  Ideal.logistic (gatePre x h w6 w10 b14 r q) * Ideal.tanh (cellAt x h c w3 w4 w5 w6 w7 w8 w9 w10 b11 b12 b13 b14 r q)

/-- The new cell state, as an array. -/
def cellArr (x h c : FVec Ideal SRows .f32) (w3 w4 w5 w6 w7 w8 w9 w10 : FVec Ideal SGate .f32)
    (b11 b12 b13 b14 : FVec Ideal SBias .f32) : FVec Ideal SRows .f32 :=
  fun j => cellAt x h c w3 w4 w5 w6 w7 w8 w9 w10 b11 b12 b13 b14 (j 0) (j 1)

/-- The new hidden state, as an array. -/
def hiddenArr (x h c : FVec Ideal SRows .f32) (w3 w4 w5 w6 w7 w8 w9 w10 : FVec Ideal SGate .f32)
    (b11 b12 b13 b14 : FVec Ideal SBias .f32) : FVec Ideal SRows .f32 :=
  fun j => hiddenAt x h c w3 w4 w5 w6 w7 w8 w9 w10 b11 b12 b13 b14 (j 0) (j 1)

/-! ## One tile against the stacked operands -/

/-- Lane `q` of gate `g` among the 512 stacked columns. -/
def col (g : Fin 4) (q : Fin 128) : Fin 512 := ⟨128 * g.val + q.val, by omega⟩
/-- Row `k` of the x-matrices among the 256 stacked rows. -/
def upper (k : Fin 128) : Fin 256 := ⟨k.val, by omega⟩
/-- Row `k` of the h-matrices among the 256 stacked rows. -/
def lower (k : Fin 128) : Fin 256 := ⟨128 + k.val, by omega⟩

/-- Gate `g`'s pre-activation at row `p` of a tile, lane `q`, from the stacked weights `w` and the bias row `b`. -/
def tilePre (xb hb : FVec Ideal STile .f32) (w : FVec Ideal SStack .f32) (b : FVec Ideal SBiasRow .f32)
    (g : Fin 4) (p : Fin 2048) (q : Fin 128) : EReal :=
  ((∑ k : Fin 128, xb (ix2 p k) * w (ix2 (upper k) (col g q))) + (∑ k : Fin 128, hb (ix2 p k) * w (ix2 (lower k) (col g q))))
    + b (ix2 (0 : Fin 1) (col g q))

/-- The tile's new cell state at row `p`, lane `q`. -/
def tileCell (xb hb cb : FVec Ideal STile .f32) (w : FVec Ideal SStack .f32) (b : FVec Ideal SBiasRow .f32)
    (p : Fin 2048) (q : Fin 128) : EReal :=
  Ideal.logistic (tilePre xb hb w b 1 p q) * cb (ix2 p q)
    + Ideal.logistic (tilePre xb hb w b 0 p q) * Ideal.tanh (tilePre xb hb w b 2 p q)

/-- The tile's new hidden state at row `p`, lane `q`. -/
def tileHidden (xb hb cb : FVec Ideal STile .f32) (w : FVec Ideal SStack .f32) (b : FVec Ideal SBiasRow .f32)
    (p : Fin 2048) (q : Fin 128) : EReal :=
  Ideal.logistic (tilePre xb hb w b 3 p q) * Ideal.tanh (tileCell xb hb cb w b p q)

end Cert.Lstm

end
-- ==== Proof.Stacked.lean ====
/-
  The stacked operands read at an index.

  Four 128 x 128 matrices side by side make a 128 x 512 matrix whose column 128 g + q is column q of matrix g; two
  such matrices one over the other make the 256 x 512 matrix whose row k (k < 128) is row k of the upper one and whose
  row 128 + k is row k of the lower one; four vectors of length 128 end to end make a vector of length 512 whose entry
  128 g + q is entry q of vector g; and that vector as a 1 x 512 row has it at (0, 128 g + q).
-/
import Idealize.ShloMosaic.Lib.Pipeline.Value
import Idealize.ShloMosaic.Lib.ValueIdx
import proofs.«159898_j25812753449993_2_alg».proof.Proof.Spec

noncomputable section

namespace Cert.Lstm

open Idealize.ShloMosaic Idealize.ShloMosaic.ValueIdx

variable {α : Type}

/-- Four gates' matrices side by side. -/
abbrev SWide : Shape := ⟨2, ![128, 512]⟩
/-- Four gates' biases end to end. -/
abbrev SLong : Shape := ⟨1, ![512]⟩

/-- Column `128 g + q` of four matrices side by side is column `q` of matrix `g`. -/
theorem sideBySide_apply (x0 x1 x2 x3 : SGate.Idx → α)
    (h : Shape.Concatenates [SGate, SGate, SGate, SGate] SWide 1) (k : Fin 128) (g : Fin 4) (q : Fin 128) :
    concatenate SWide 1 [⟨SGate, x0⟩, ⟨SGate, x1⟩, ⟨SGate, x2⟩, ⟨SGate, x3⟩] h (ix2 k (col g q))
      = (![x0, x1, x2, x3] g) (ix2 k q) := by
  have hg := g.isLt
  have hq := q.isLt
  exact concatenate_ofFn_apply (t := SWide) (s₁ := SGate) (1 : Fin 2) (![x0, x1, x2, x3]) h rfl 128 rfl (ix2 k (col g q)) g
    (by show (128 * g.val + q.val) / 128 = g.val; omega) (ix2 k q)
    (by show q.val = (128 * g.val + q.val) % 128; omega)
    (fun b hb => by match b with | ⟨0, _⟩ => rfl | ⟨1, _⟩ => exact absurd rfl hb)

/-- Entry `128 g + q` of four vectors end to end is entry `q` of vector `g`. -/
theorem endToEnd_apply (b0 b1 b2 b3 : SBias.Idx → α)
    (h : Shape.Concatenates [SBias, SBias, SBias, SBias] SLong 0) (g : Fin 4) (q : Fin 128) :
    concatenate SLong 0 [⟨SBias, b0⟩, ⟨SBias, b1⟩, ⟨SBias, b2⟩, ⟨SBias, b3⟩] h (ix1 (col g q))
      = (![b0, b1, b2, b3] g) (ix1 q) := by
  have hg := g.isLt
  have hq := q.isLt
  exact concatenate_ofFn_apply (t := SLong) (s₁ := SBias) (0 : Fin 1) (![b0, b1, b2, b3]) h rfl 128 rfl (ix1 (col g q)) g
    (by show (128 * g.val + q.val) / 128 = g.val; omega) (ix1 q)
    (by show q.val = (128 * g.val + q.val) % 128; omega)
    (fun b hb => by match b with | ⟨0, _⟩ => exact absurd rfl hb)

/-- Row `k` of the upper of two matrices, one over the other. -/
theorem stack_upper (a b : SWide.Idx → α) (h : Shape.Concatenates [SWide, SWide] SStack 0) (k : Fin 128) (c : Fin 512) :
    concatenate SStack 0 [⟨SWide, a⟩, ⟨SWide, b⟩] h (ix2 (upper k) c) = a (ix2 k c) :=
  concatenate_pair_apply_left (0 : Fin 2) a b h (ix2 (upper k) c) rfl (ix2 k c)
    (fun d => by match d with | ⟨0, _⟩ => rfl | ⟨1, _⟩ => rfl)

/-- Row `128 + k` of the two is row `k` of the lower one. -/
theorem stack_lower (a b : SWide.Idx → α) (h : Shape.Concatenates [SWide, SWide] SStack 0) (k : Fin 128) (c : Fin 512) :
    concatenate SStack 0 [⟨SWide, a⟩, ⟨SWide, b⟩] h (ix2 (lower k) c) = b (ix2 k c) :=
  concatenate_pair_apply_right (0 : Fin 2) a b h (ix2 (lower k) c) rfl rfl (ix2 k c)
    (fun d hd => by match d with | ⟨0, _⟩ => exact absurd rfl hd | ⟨1, _⟩ => rfl)
    (by show k.val + 128 = 128 + k.val; omega)

/-- A vector of length 512 as a 1 x 512 row. -/
theorem asRow_apply (v : SLong.Idx → α) (h : SLong.ShapeCasts SBiasRow) (c : Fin 512) :
    shapeCast SBiasRow v h (ix2 (0 : Fin 1) c) = v (ix1 c) :=
  (shapeCast_addUnit_apply ![512] v h (ix2 (0 : Fin 1) c)).trans
    (congrArg v (funext fun a => by match a with | ⟨0, _⟩ => rfl))

end Cert.Lstm

end
-- ==== Proof.KernelBlocks.lean ====
/-
  Each window's block read at an index, and the tile formulas as the array formulas.

  When the region is entered the stacked weights hold, at row k (k < 128) and column 128 g + q, entry (k, q) of gate
  g's x-matrix, and at row 128 + k entry (k, q) of gate g's h-matrix; the bias row holds gate g's bias q at (0, 128 g + q):
  the three concatenations and the reshape of the host lines, read at an index.  At point t the three batch windows
  hold rows 2048 t .. 2048 t + 2047 of x, h and c, and the two resident windows hold the stacked weights and the bias row
  whole.  Hence a tile's pre-activations, new cell state and new hidden state at row p are the batch's at row
  2048 t + p.
-/
import proofs.«159898_j25812753449993_2_alg».proof.Proof.KernelIdealFrame
import proofs.«159898_j25812753449993_2_alg».proof.Proof.Spec
import proofs.«159898_j25812753449993_2_alg».proof.Proof.Stacked
import Idealize.ShloMosaic.Lib.StableHlo.Run
import Idealize.ShloMosaic.PureOps.Ideal
import Idealize.ShloMosaic.Lib.Pipeline.Value

noncomputable section

open scoped BigOperators

namespace Cert.Lstm.Blocks

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Frame Cert.Lstm

variable (m : (ℓ : Loc nD τ sig) → Buf (Elt Ideal) ℓ)

/-! ## The argument arrays as launched -/

abbrev X0 (c : Dev nD) : FVec Ideal SRows .f32 := m ((c : Thread nD τ).loc main_arg0)
abbrev X1 (c : Dev nD) : FVec Ideal SRows .f32 := m ((c : Thread nD τ).loc main_arg1)
abbrev X2 (c : Dev nD) : FVec Ideal SRows .f32 := m ((c : Thread nD τ).loc main_arg2)
abbrev W3 (c : Dev nD) : FVec Ideal SGate .f32 := m ((c : Thread nD τ).loc main_arg3)
abbrev W4 (c : Dev nD) : FVec Ideal SGate .f32 := m ((c : Thread nD τ).loc main_arg4)
abbrev W5 (c : Dev nD) : FVec Ideal SGate .f32 := m ((c : Thread nD τ).loc main_arg5)
abbrev W6 (c : Dev nD) : FVec Ideal SGate .f32 := m ((c : Thread nD τ).loc main_arg6)
abbrev W7 (c : Dev nD) : FVec Ideal SGate .f32 := m ((c : Thread nD τ).loc main_arg7)
abbrev W8 (c : Dev nD) : FVec Ideal SGate .f32 := m ((c : Thread nD τ).loc main_arg8)
abbrev W9 (c : Dev nD) : FVec Ideal SGate .f32 := m ((c : Thread nD τ).loc main_arg9)
abbrev W10 (c : Dev nD) : FVec Ideal SGate .f32 := m ((c : Thread nD τ).loc main_arg10)
abbrev B11 (c : Dev nD) : FVec Ideal SBias .f32 := m ((c : Thread nD τ).loc main_arg11)
abbrev B12 (c : Dev nD) : FVec Ideal SBias .f32 := m ((c : Thread nD τ).loc main_arg12)
abbrev B13 (c : Dev nD) : FVec Ideal SBias .f32 := m ((c : Thread nD τ).loc main_arg13)
abbrev B14 (c : Dev nD) : FVec Ideal SBias .f32 := m ((c : Thread nD τ).loc main_arg14)

/-! ## What the host lines leave in the stacked operands -/

/-- The stacked weights: the x-matrices side by side over the h-matrices side by side. -/
theorem V_stack (c : Dev nD) : (V m c main_v2 : S256x512.Idx → EReal) =
    concatenate S256x512 0
      [⟨S128x512, concatenate S128x512 1 [⟨S128x128, W3 m c⟩, ⟨S128x128, W4 m c⟩, ⟨S128x128, W5 m c⟩, ⟨S128x128, W6 m c⟩] concatenates_S128x128_S128x128_S128x128_S128x128_S128x512_d1⟩,
       ⟨S128x512, concatenate S128x512 1 [⟨S128x128, W7 m c⟩, ⟨S128x128, W8 m c⟩, ⟨S128x128, W9 m c⟩, ⟨S128x128, W10 m c⟩] concatenates_S128x128_S128x128_S128x128_S128x128_S128x512_d1⟩]
      concatenates_S128x512_S128x512_S256x512_d0 := by
  dsimp only [V, hostOps0]
  after_results
  rfl

/-- The four biases end to end. -/
theorem V_biasVec (c : Dev nD) : (V m c main_v3 : S512.Idx → EReal) =
    concatenate S512 0 [⟨S128, B11 m c⟩, ⟨S128, B12 m c⟩, ⟨S128, B13 m c⟩, ⟨S128, B14 m c⟩] concatenates_S128_S128_S128_S128_S512_d0 := by
  dsimp only [V, hostOps0]
  after_results
  rfl

/-- The bias row is that vector as a 1 x 512 row. -/
theorem V_biasRow (c : Dev nD) : (V m c main_v4 : S1x512.Idx → EReal) =
    shapeCast S1x512 (V m c main_v3 : S512.Idx → EReal) shapeCasts_S512_S1x512 := by
  dsimp only [V, hostOps0]
  simp only [after_cons, after_nil]
  rw [reshape_result, reshape_result_ne]
  · rfl
  · decide

/-- Row `k`, column `128 g + q` of the stacked weights: gate `g`'s x-matrix at `(k, q)`. -/
theorem stack_upper_at (c : Dev nD) (k : Fin 128) (g : Fin 4) (q : Fin 128) :
    (V m c main_v2 : S256x512.Idx → EReal) (ix2 (upper k) (col g q)) = (![W3 m c, W4 m c, W5 m c, W6 m c] g) (ix2 k q) := by
  rw [V_stack]
  exact (stack_upper _ _ _ k (col g q)).trans (sideBySide_apply _ _ _ _ _ k g q)

/-- Row `128 + k`, column `128 g + q`: gate `g`'s h-matrix at `(k, q)`. -/
theorem stack_lower_at (c : Dev nD) (k : Fin 128) (g : Fin 4) (q : Fin 128) :
    (V m c main_v2 : S256x512.Idx → EReal) (ix2 (lower k) (col g q)) = (![W7 m c, W8 m c, W9 m c, W10 m c] g) (ix2 k q) := by
  rw [V_stack]
  exact (stack_lower _ _ _ k (col g q)).trans (sideBySide_apply _ _ _ _ _ k g q)

/-- Entry `(0, 128 g + q)` of the bias row: gate `g`'s bias at `q`. -/
theorem biasRow_at (c : Dev nD) (g : Fin 4) (q : Fin 128) :
    (V m c main_v4 : S1x512.Idx → EReal) (ix2 (0 : Fin 1) (col g q)) = (![B11 m c, B12 m c, B13 m c, B14 m c] g) (ix1 q) := by
  rw [V_biasRow, V_biasVec]
  exact (asRow_apply _ _ (col g q)).trans (endToEnd_apply _ _ _ _ _ g q)

/-! ## The windows' blocks at an index -/

/-- The printed index maps over the grid: the batch windows and the result windows are at block row `t`, the resident
    windows at block (0, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point `t`: rows `2048 t .. 2048 t + 2047` of its array. -/
theorem tile0_at (c : Dev nD) (t : Fin cfg0.N) (p : Fin 2048) (k : Fin 128) (r : Fin 131072) (hr : r.val = 2048 * t.val + p.val) :
    (iblk m c 0 t : Vec Ideal S2048x128 .f32) (ix2 p k) = X0 m c (ix2 r k) := by
  have e0 : win0_0.index t (0 : Fin 2) = t.val := (idx_rows t).1
  have e1 : win0_0.index t (1 : Fin 2) = 0 := (idx_rows t).2.1
  unfold iblk
  rw [View.read_apply]
  show V m c main_arg0 _ = _
  rw [V_main_arg0]
  refine congrArg (X0 m c) ?_
  funext a
  apply Fin.ext
  match a with
  | ⟨0, _⟩ => show win0_0.index t (0 : Fin 2) * 2048 + 1 * p.val = r.val; omega
  | ⟨1, _⟩ => show win0_0.index t (1 : Fin 2) * 128 + 1 * k.val = k.val; omega

/-- Window 1's block at point `t`: rows `2048 t .. 2048 t + 2047` of its array. -/
theorem tile1_at (c : Dev nD) (t : Fin cfg0.N) (p : Fin 2048) (k : Fin 128) (r : Fin 131072) (hr : r.val = 2048 * t.val + p.val) :
    (iblk m c 1 t : Vec Ideal S2048x128 .f32) (ix2 p k) = X1 m c (ix2 r k) := by
  have e0 : win0_1.index t (0 : Fin 2) = t.val := (idx_rows t).2.2.1
  have e1 : win0_1.index t (1 : Fin 2) = 0 := (idx_rows t).2.2.2.1
  unfold iblk
  rw [View.read_apply]
  show V m c main_arg1 _ = _
  rw [V_main_arg1]
  refine congrArg (X1 m c) ?_
  funext a
  apply Fin.ext
  match a with
  | ⟨0, _⟩ => show win0_1.index t (0 : Fin 2) * 2048 + 1 * p.val = r.val; omega
  | ⟨1, _⟩ => show win0_1.index t (1 : Fin 2) * 128 + 1 * k.val = k.val; omega

/-- Window 2's block at point `t`: rows `2048 t .. 2048 t + 2047` of its array. -/
theorem tile2_at (c : Dev nD) (t : Fin cfg0.N) (p : Fin 2048) (k : Fin 128) (r : Fin 131072) (hr : r.val = 2048 * t.val + p.val) :
    (iblk m c 2 t : Vec Ideal S2048x128 .f32) (ix2 p k) = X2 m c (ix2 r k) := by
  have e0 : win0_2.index t (0 : Fin 2) = t.val := (idx_rows t).2.2.2.2.1
  have e1 : win0_2.index t (1 : Fin 2) = 0 := (idx_rows t).2.2.2.2.2.1
  unfold iblk
  rw [View.read_apply]
  show V m c main_arg2 _ = _
  rw [V_main_arg2]
  refine congrArg (X2 m c) ?_
  funext a
  apply Fin.ext
  match a with
  | ⟨0, _⟩ => show win0_2.index t (0 : Fin 2) * 2048 + 1 * p.val = r.val; omega
  | ⟨1, _⟩ => show win0_2.index t (1 : Fin 2) * 128 + 1 * k.val = k.val; omega

/-- The resident weights window holds the stacked weights whole, at every point. -/
theorem stack_blk_at (c : Dev nD) (t : Fin cfg0.N) (y : S256x512.Idx) :
    (iblk m c 3 t : Vec Ideal S256x512 .f32) y = (V m c main_v2 : S256x512.Idx → EReal) y := by
  have e0 : win0_3.index t (0 : Fin 2) = 0 := (idx_rows t).2.2.2.2.2.2.1
  have e1 : win0_3.index t (1 : Fin 2) = 0 := (idx_rows t).2.2.2.2.2.2.2.1
  unfold iblk
  rw [View.read_apply]
  show V m c main_v2 _ = _
  refine congrArg (V m c main_v2 : S256x512.Idx → EReal) ?_
  funext a
  apply Fin.ext
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- The resident bias window holds the bias row whole, at every point. -/
theorem bias_blk_at (c : Dev nD) (t : Fin cfg0.N) (y : S1x512.Idx) :
    (iblk m c 4 t : Vec Ideal S1x512 .f32) y = (V m c main_v4 : S1x512.Idx → EReal) y := by
  have e0 : win0_4.index t (0 : Fin 2) = 0 := (idx_rows t).2.2.2.2.2.2.2.2.1
  have e1 : win0_4.index t (1 : Fin 2) = 0 := (idx_rows t).2.2.2.2.2.2.2.2.2.1
  unfold iblk
  rw [View.read_apply]
  show V m c main_v4 _ = _
  refine congrArg (V m c main_v4 : S1x512.Idx → EReal) ?_
  funext a
  apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

/-! ## A tile's formulas are the batch's at row `2048 t + p` -/

/-- Gate `g`'s pre-activation. -/
theorem tilePre_at (c : Dev nD) (t : Fin cfg0.N) (g : Fin 4) (p : Fin 2048) (q : Fin 128) (r : Fin 131072)
    (hr : r.val = 2048 * t.val + p.val) :
    tilePre (iblk m c 0 t) (iblk m c 1 t) (iblk m c 3 t) (iblk m c 4 t) g p q
      = gatePre (X0 m c) (X1 m c) (![W3 m c, W4 m c, W5 m c, W6 m c] g) (![W7 m c, W8 m c, W9 m c, W10 m c] g)
          (![B11 m c, B12 m c, B13 m c, B14 m c] g) r q := by
  unfold tilePre gatePre
  congr 1
  · congr 1
    · exact Finset.sum_congr rfl fun k _ => by
        rw [tile0_at m c t p k r hr, stack_blk_at m c t, stack_upper_at m c k g q]
    · exact Finset.sum_congr rfl fun k _ => by
        rw [tile1_at m c t p k r hr, stack_blk_at m c t, stack_lower_at m c k g q]
  · rw [bias_blk_at m c t, biasRow_at m c g q]

/-- The new cell state. -/
theorem tileCell_at (c : Dev nD) (t : Fin cfg0.N) (p : Fin 2048) (q : Fin 128) (r : Fin 131072)
    (hr : r.val = 2048 * t.val + p.val) :
    tileCell (iblk m c 0 t) (iblk m c 1 t) (iblk m c 2 t) (iblk m c 3 t) (iblk m c 4 t) p q
      = cellAt (X0 m c) (X1 m c) (X2 m c) (W3 m c) (W4 m c) (W5 m c) (W6 m c) (W7 m c) (W8 m c) (W9 m c) (W10 m c)
          (B11 m c) (B12 m c) (B13 m c) (B14 m c) r q := by
  unfold tileCell cellAt
  rw [tilePre_at m c t 1 p q r hr, tilePre_at m c t 0 p q r hr, tilePre_at m c t 2 p q r hr, tile2_at m c t p q r hr]
  rfl

/-- The new hidden state. -/
theorem tileHidden_at (c : Dev nD) (t : Fin cfg0.N) (p : Fin 2048) (q : Fin 128) (r : Fin 131072)
    (hr : r.val = 2048 * t.val + p.val) :
    tileHidden (iblk m c 0 t) (iblk m c 1 t) (iblk m c 2 t) (iblk m c 3 t) (iblk m c 4 t) p q
      = hiddenAt (X0 m c) (X1 m c) (X2 m c) (W3 m c) (W4 m c) (W5 m c) (W6 m c) (W7 m c) (W8 m c) (W9 m c) (W10 m c)
          (B11 m c) (B12 m c) (B13 m c) (B14 m c) r q := by
  unfold tileHidden hiddenAt
  rw [tilePre_at m c t 3 p q r hr, tileCell_at m c t p q r hr]
  rfl

end Cert.Lstm.Blocks

end
-- ==== Proof.TilePayload.lean ====
/-
  The values one tile of the LSTM cell stores, read entry by entry on the extended reals.

  The tile multiplies the 2048 x 256 matrix [x | h] (the x rows and the h rows side by side) by the stacked
  256 x 512 weights and adds the 1 x 512 bias row to every row of the product: entry (p, c) of the result is

      sum_{k < 256} [x | h][p, k] * w[k, c]  +  b[0, c].

  The sum over the 256 columns splits at 128: the first half meets the x rows and the upper 128 rows of w, the
  second half the h rows and the lower 128 rows of w.  At column c = 128 * g + q this is gate g's pre-activation
  `tilePre` at (p, q).  The four gates are the four column slices of width 128; the stored cell state is
  sigma(gate 1) * c + sigma(gate 0) * tanh(gate 2) and the stored hidden state is sigma(gate 3) * tanh(cell state),
  which are `tileCell` and `tileHidden`.  Changes of float format are the identity on the extended reals, and
  sums there split and reorder freely, so nothing is assumed finite.
-/
import proofs.«159898_j25812753449993_2_alg».proof.Proof.Gen.KernelIdeal.Skeleton
import proofs.«159898_j25812753449993_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lstm.Tile

open Cert.KernelIdeal Idealize.ShloMosaic Idealize.ShloMosaic.ValueIdx

/-! ## The matrix [x | h] -/

/-- Column `k < 128` of [a | b] is column `k` of `a`. -/
theorem cat_upper (a b : FVec Ideal S2048x128 .bf16) (h : Shape.Concatenates [S2048x128, S2048x128] S2048x256 1)
    (p : Fin 2048) (k : Fin 128) :
    concatenate S2048x256 1 [⟨S2048x128, a⟩, ⟨S2048x128, b⟩] h (ix2 p (upper k)) = a (ix2 p k) :=
  concatenate_pair_apply_left 1 a b h _ rfl _ (fun c => by
    match c with
    | ⟨0, _⟩ => rfl
    | ⟨1, _⟩ => rfl)

/-- Column `128 + k` of [a | b] is column `k` of `b`. -/
theorem cat_lower (a b : FVec Ideal S2048x128 .bf16) (h : Shape.Concatenates [S2048x128, S2048x128] S2048x256 1)
    (p : Fin 2048) (k : Fin 128) :
    concatenate S2048x256 1 [⟨S2048x128, a⟩, ⟨S2048x128, b⟩] h (ix2 p (lower k)) = b (ix2 p k) :=
  concatenate_pair_apply_right 1 a b h _ rfl rfl _
    (fun c hc => by
      match c with
      | ⟨0, _⟩ => rfl
      | ⟨1, _⟩ => exact absurd rfl hc)
    (by show k.val + 128 = 128 + k.val; omega)

/-! ## The product [2048, 256] x [256, 512]

At output entry `i` = (row, column) and contraction position `t` the left operand is read at (row, t) and the right
operand at (t, column). -/

theorem lhs_row (i : S2048x512.Idx) (t : dot_S2048x256_S256x512_S2048x512_1_0_0_1_n_n.contr.Idx) :
    (dot_S2048x256_S256x512_S2048x512_1_0_0_1_n_n.lhsIdx i t 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_col (i : S2048x512.Idx) (t : dot_S2048x256_S256x512_S2048x512_1_0_0_1_n_n.contr.Idx) :
    (dot_S2048x256_S256x512_S2048x512_1_0_0_1_n_n.lhsIdx i t 1).val = (t ⟨0, by decide⟩).val :=
  dot_S2048x256_S256x512_S2048x512_1_0_0_1_n_n.lhsIdx_val_of_single rfl i t
theorem rhs_row (i : S2048x512.Idx) (t : dot_S2048x256_S256x512_S2048x512_1_0_0_1_n_n.contr.Idx) :
    (dot_S2048x256_S256x512_S2048x512_1_0_0_1_n_n.rhsIdx i t 0).val = (t ⟨0, by decide⟩).val :=
  dot_S2048x256_S256x512_S2048x512_1_0_0_1_n_n.rhsIdx_val_of_single rfl i t
theorem rhs_col (i : S2048x512.Idx) (t : dot_S2048x256_S256x512_S2048x512_1_0_0_1_n_n.contr.Idx) :
    (dot_S2048x256_S256x512_S2048x512_1_0_0_1_n_n.rhsIdx i t 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Entry (p, c) of the product accumulated from zero: `sum_{k < 256} l[p, k] * r[k, c]`. -/
theorem matmul_at (l : FVec Ideal S2048x256 .bf16) (r : FVec Ideal S256x512 .bf16) (p : Fin 2048) (c : Fin 512) :
    matmul dot_S2048x256_S256x512_S2048x512_1_0_0_1_n_n none l r (constant (F := Ideal) S2048x512 .f32 0x00000000#32) (ix2 p c)
      = ∑ k : Fin 256, l (ix2 p k) * r (ix2 k c) := by
  refine (Ideal.matmul_constant_zero_apply dot_S2048x256_S256x512_S2048x512_1_0_0_1_n_n none l r (ix2 p c)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p c) ((contrEquiv1 dot_S2048x256_S256x512_S2048x512_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x512_S2048x512_1_0_0_1_n_n.rhsIdx (ix2 p c) ((contrEquiv1 dot_S2048x256_S256x512_S2048x512_1_0_0_1_n_n 256 rfl rfl).symm k) = ix2 k c := funext fun a => Fin.ext (by
    match a with
    | ⟨0, _⟩ => exact (rhs_row _ _).trans hk
    | ⟨1, _⟩ => exact rhs_col _ _)
  rw [el, er]

/-! ## The pre-activations -/

/-- Entry (p, 128 * g + q) of [x | h] * w + b is gate `g`'s pre-activation at (p, q): the sum over the 256 columns
    splits at 128 into the x half against the upper rows of `w` and the h half against the lower rows; the bias row
    is read at its one row. -/
theorem pre_at (v0 v2 : Vec Ideal S2048x128 .f32) (v5 : Vec Ideal S256x512 .f32) (v9 : Vec Ideal S1x512 .f32)
    (g : Fin 4) (p : Fin 2048) (q : Fin 128) :
    Gen.k0_pay1 (F := Ideal) v0 v2 v5 v9 (ix2 p (col g q)) = tilePre v0 v2 v5 v9 g p q := by
  unfold Gen.k0_pay1 tilePre
  refine congrArg₂ (· + ·) ?_ ?_
  · refine (matmul_at _ _ p (col g q)).trans ?_
    refine (Fin.sum_univ_add (a := 128) (b := 128) _).trans ?_
    refine congrArg₂ (· + ·) (Finset.sum_congr rfl fun k _ => ?_) (Finset.sum_congr rfl fun k _ => ?_)
    · refine congrArg₂ (· * ·) (cat_upper _ _ _ p k) ?_
      rw [shapeCast_self]
      rfl
    · refine congrArg₂ (· * ·) (cat_lower _ _ _ p k) ?_
      rw [shapeCast_self]
      rfl
  · rw [shapeCast_self]
    exact broadcastTo_apply _ _ _ _ fun a => match a with
      | ⟨0, _⟩ => by show (0 : Nat) = if (1 : Nat) = 1 then 0 else p.val; rfl
      | ⟨1, _⟩ => by show (col g q).val = if (512 : Nat) = 1 then 0 else (col g q).val; rfl

/-! ## The four gates: column slices of width 128 -/

/-- The slice of width 128 at column offset `o = 128 * g` reads column `128 * g + q`. -/
theorem slice_at (x : FVec Ideal S2048x512 .f32) (o : Nat) (h : S2048x512.Slices ![0, o] S2048x128) (g : Fin 4)
    (ho : o = 128 * g.val) (p : Fin 2048) (q : Fin 128) :
    extractStridedSlice S2048x128 ![0, o] x h (ix2 p q) = x (ix2 p (col g q)) :=
  extractStridedSlice_apply _ _ _ _ _ fun a => match a with
    | ⟨0, _⟩ => by show p.val = 0 + p.val; omega
    | ⟨1, _⟩ => by show 128 * g.val + q.val = o + q.val; omega

/-- The slice at column offset `128 * g` of the pre-activations is gate `g`'s pre-activation. -/
theorem gate_at (v0 v2 : Vec Ideal S2048x128 .f32) (v5 : Vec Ideal S256x512 .f32) (v9 : Vec Ideal S1x512 .f32)
    (o : Nat) (h : S2048x512.Slices ![0, o] S2048x128) (g : Fin 4) (ho : o = 128 * g.val) (p : Fin 2048) (q : Fin 128) :
    extractStridedSlice S2048x128 ![0, o] (Gen.k0_pay1 (F := Ideal) v0 v2 v5 v9) h (ix2 p q) = tilePre v0 v2 v5 v9 g p q :=
  (slice_at _ o h g ho p q).trans (pre_at v0 v2 v5 v9 g p q)

/-! ## The two stored values -/

/-- The stored cell state at (p, q): sigma(gate 1) * c + sigma(gate 0) * tanh(gate 2). -/
theorem pay_cell (v0 v2 : Vec Ideal S2048x128 .f32) (v5 : Vec Ideal S256x512 .f32) (v9 : Vec Ideal S1x512 .f32)
    (v21 : Vec Ideal S2048x128 .f32) (p : Fin 2048) (q : Fin 128) :
    Cert.KernelIdeal.Gen.k0_pay2 (F := Ideal) v0 v2 v5 v9 v21 (ix2 p q) = Cert.Lstm.tileCell v0 v2 v21 v5 v9 p q := by
  unfold Gen.k0_pay2 tileCell
  refine congrArg₂ (· + ·) (congrArg₂ (· * ·) (congrArg Ideal.logistic ?_) rfl)
    (congrArg₂ (· * ·) (congrArg Ideal.logistic ?_) (congrArg Ideal.tanh ?_))
  · exact gate_at v0 v2 v5 v9 128 _ 1 rfl p q
  · exact gate_at v0 v2 v5 v9 0 _ 0 rfl p q
  · exact gate_at v0 v2 v5 v9 256 _ 2 rfl p q

/-- The stored hidden state at (p, q): sigma(gate 3) * tanh(the stored cell state). -/
theorem pay_hidden (v0 v2 : Vec Ideal S2048x128 .f32) (v5 : Vec Ideal S256x512 .f32) (v9 : Vec Ideal S1x512 .f32)
    (v21 : Vec Ideal S2048x128 .f32) (p : Fin 2048) (q : Fin 128) :
    Cert.KernelIdeal.Gen.k0_pay3 (F := Ideal) v0 v2 v5 v9 v21 (ix2 p q) = Cert.Lstm.tileHidden v0 v2 v21 v5 v9 p q := by
  unfold Gen.k0_pay3 tileHidden
  refine congrArg₂ (· * ·) (congrArg Ideal.logistic ?_) (congrArg Ideal.tanh ?_)
  · exact gate_at v0 v2 v5 v9 384 _ 3 rfl p q
  · exact pay_cell v0 v2 v5 v9 v21 p q

end Cert.Lstm.Tile

end
-- ==== Proof.KernelValue.lean ====
/-
  The two result arrays after the run.

  At point t the body leaves in the hidden-state buffer the tile formula of the five input blocks, which is the batch
  formula at rows 2048 t .. 2048 t + 2047; that buffer is written back to exactly those rows of the result array, and
  the 64 points' row ranges fill the array (row r belongs to point r / 2048).  So after the run the first result array
  is the specification's new hidden state of the fifteen arguments as launched, and likewise the second the new cell
  state; the arguments themselves are unchanged.
-/
import proofs.«159898_j25812753449993_2_alg».proof.Proof.KernelBlocks
import proofs.«159898_j25812753449993_2_alg».proof.Proof.TilePayload

set_option maxRecDepth 16384

noncomputable section

open scoped BigOperators

namespace Cert.Lstm.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.Lstm Cert.Lstm.Blocks

variable (m : (ℓ : Loc nD τ sig) → Buf (Elt Ideal) ℓ) (ρ : Dev nD → PrngReg)

theorem hz : (![0, 0] : Fin 2 → Nat) = fun _ => 0 := funext fun a => by fin_cases a <;> rfl

/-- The specification's new hidden state of the arguments as launched. -/
abbrev hiddenG (c : Dev nD) : FVec Ideal SRows .f32 := hiddenArr (X0 m c) (X1 m c) (X2 m c) (W3 m c) (W4 m c) (W5 m c) (W6 m c) (W7 m c) (W8 m c) (W9 m c) (W10 m c) (B11 m c) (B12 m c) (B13 m c) (B14 m c)
/-- The specification's new cell state of the arguments as launched. -/
abbrev cellG (c : Dev nD) : FVec Ideal SRows .f32 := cellArr (X0 m c) (X1 m c) (X2 m c) (W3 m c) (W4 m c) (W5 m c) (W6 m c) (W7 m c) (W8 m c) (W9 m c) (W10 m c) (B11 m c) (B12 m c) (B13 m c) (B14 m c)

/-- The hidden-state array at an index with coordinates `r`, `q`. -/
theorem hiddenG_at (c : Dev nD) (i : S131072x128.Idx) (r : Fin 131072) (q : Fin 128) (h0 : (i 0).val = r.val) (h1 : (i 1).val = q.val) :
    hiddenG m c i = hiddenAt (X0 m c) (X1 m c) (X2 m c) (W3 m c) (W4 m c) (W5 m c) (W6 m c) (W7 m c) (W8 m c) (W9 m c) (W10 m c) (B11 m c) (B12 m c) (B13 m c) (B14 m c) r q :=
  congrArg₂ (hiddenAt (X0 m c) (X1 m c) (X2 m c) (W3 m c) (W4 m c) (W5 m c) (W6 m c) (W7 m c) (W8 m c) (W9 m c) (W10 m c) (B11 m c) (B12 m c) (B13 m c) (B14 m c)) (Fin.ext h0) (Fin.ext h1)

/-- The cell-state array at an index with coordinates `r`, `q`. -/
theorem cellG_at (c : Dev nD) (i : S131072x128.Idx) (r : Fin 131072) (q : Fin 128) (h0 : (i 0).val = r.val) (h1 : (i 1).val = q.val) :
    cellG m c i = cellAt (X0 m c) (X1 m c) (X2 m c) (W3 m c) (W4 m c) (W5 m c) (W6 m c) (W7 m c) (W8 m c) (W9 m c) (W10 m c) (B11 m c) (B12 m c) (B13 m c) (B14 m c) r q :=
  congrArg₂ (cellAt (X0 m c) (X1 m c) (X2 m c) (W3 m c) (W4 m c) (W5 m c) (W6 m c) (W7 m c) (W8 m c) (W9 m c) (W10 m c) (B11 m c) (B12 m c) (B13 m c) (B14 m c)) (Fin.ext h0) (Fin.ext h1)

/-! ## Result 0: the hidden state -/

/-- What point `t` writes back to result 0 (the hidden state) is block `t` of the specification's array. -/
theorem flushed5 (c : Dev nD) (t : Fin cfg0.N) :
    (dats m 0 c).flushed 5 t = ((cfg0.win 5).blk t).view.read (Elt Ideal) (hiddenG m c) := by
  have e0 : win0_5.index t (0 : Fin 2) = t.val := (idx_rows t).2.2.2.2.2.2.2.2.2.2.1
  have e1 : win0_5.index t (1 : Fin 2) = 0 := (idx_rows t).2.2.2.2.2.2.2.2.2.2.2.1
  have ht : t.val < 64 := lt_of_lt_of_eq t.isLt N_0
  show (cfg0.win 5).cut (grid0.coords t) ((dats m 0 c).after 5 t) = _
  rw [after5]
  unfold hiddenTile
  rw [View.canon_unit_zero hz]
  simp only [View.ld_unit_zero (S := S2048x128) hz, View.ld_unit_zero (S := S256x512) hz, View.ld_unit_zero (S := S1x512) hz]
  funext j
  obtain ⟨p, q, rfl⟩ : ∃ (p : Fin 2048) (q : Fin 128), j = ix2 p q := ⟨j 0, j 1, eq_ix2 j⟩
  have hp := p.isLt
  show Cert.KernelIdeal.Gen.k0_pay3 (F := Ideal) (iblk m c 0 t) (iblk m c 1 t) (iblk m c 3 t) (iblk m c 4 t) (iblk m c 2 t) (ix2 p q) = _
  refine (Tile.pay_hidden _ _ _ _ _ p q).trans ?_
  refine (tileHidden_at m c t p q ⟨2048 * t.val + p.val, by omega⟩ rfl).trans ?_
  rw [View.read_apply]
  exact (hiddenG_at m c _ _ q
    (by show win0_5.index t (0 : Fin 2) * 2048 + 1 * p.val = 2048 * t.val + p.val; omega)
    (by show win0_5.index t (1 : Fin 2) * 128 + 1 * q.val = q.val; omega)).symm

/-- An index is in point `t`'s block iff each coordinate is in the block's range on its axis. -/
theorem mem_blk5 (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v5_0).slice (win0_5.rect t)).set ↔ _
  rw [View.set_slice_whole, Rect.mem_set_unit]
  exact Iff.rfl

/-- Row `r` lies in the block of point `r / 2048`, which is written back. -/
theorem cover5 (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hN : cfg0.N = 64 := N_0
  have hlt : (i 0).val / 2048 < cfg0.N := by rw [hN]; omega
  refine ⟨⟨(i 0).val / 2048, hlt⟩, flush0_5 _, ?_⟩
  have e0 : win0_5.index ⟨(i 0).val / 2048, hlt⟩ (0 : Fin 2) = (i 0).val / 2048 := (idx_rows ⟨(i 0).val / 2048, hlt⟩).2.2.2.2.2.2.2.2.2.2.1
  have e1 : win0_5.index ⟨(i 0).val / 2048, hlt⟩ (1 : Fin 2) = 0 := (idx_rows ⟨(i 0).val / 2048, hlt⟩).2.2.2.2.2.2.2.2.2.2.2.1
  rw [mem_blk5]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    rw [e0]; omega
  | ⟨1, _⟩ =>
    show win0_5.index ⟨(i 0).val / 2048, hlt⟩ (1 : Fin 2) * 128 ≤ (i 1).val ∧ (i 1).val < win0_5.index ⟨(i 0).val / 2048, hlt⟩ (1 : Fin 2) * 128 + 128
    rw [e1]; omega

/-- So the result array ends at the specification's array. -/
theorem final5 (c : Dev nD) : (dats m 0 c).arrAt 5 cfg0.N = hiddenG m c :=
  (dats m 0 c).arrAt_eq_of_cover 5 (hiddenG m c) (fun t _ => flushed5 m c t) cover5

/-! ## Result 1: the cell state -/

/-- What point `t` writes back to result 1 (the cell state) is block `t` of the specification's array. -/
theorem flushed6 (c : Dev nD) (t : Fin cfg0.N) :
    (dats m 0 c).flushed 6 t = ((cfg0.win 6).blk t).view.read (Elt Ideal) (cellG m c) := by
  have e0 : win0_6.index t (0 : Fin 2) = t.val := (idx_rows t).2.2.2.2.2.2.2.2.2.2.2.2.1
  have e1 : win0_6.index t (1 : Fin 2) = 0 := (idx_rows t).2.2.2.2.2.2.2.2.2.2.2.2.2
  have ht : t.val < 64 := lt_of_lt_of_eq t.isLt N_0
  show (cfg0.win 6).cut (grid0.coords t) ((dats m 0 c).after 6 t) = _
  rw [after6]
  unfold cellTile
  rw [View.canon_unit_zero hz]
  simp only [View.ld_unit_zero (S := S2048x128) hz, View.ld_unit_zero (S := S256x512) hz, View.ld_unit_zero (S := S1x512) hz]
  funext j
  obtain ⟨p, q, rfl⟩ : ∃ (p : Fin 2048) (q : Fin 128), j = ix2 p q := ⟨j 0, j 1, eq_ix2 j⟩
  have hp := p.isLt
  show Cert.KernelIdeal.Gen.k0_pay2 (F := Ideal) (iblk m c 0 t) (iblk m c 1 t) (iblk m c 3 t) (iblk m c 4 t) (iblk m c 2 t) (ix2 p q) = _
  refine (Tile.pay_cell _ _ _ _ _ p q).trans ?_
  refine (tileCell_at m c t p q ⟨2048 * t.val + p.val, by omega⟩ rfl).trans ?_
  rw [View.read_apply]
  exact (cellG_at m c _ _ q
    (by show win0_6.index t (0 : Fin 2) * 2048 + 1 * p.val = 2048 * t.val + p.val; omega)
    (by show win0_6.index t (1 : Fin 2) * 128 + 1 * q.val = q.val; omega)).symm

/-- An index is in point `t`'s block iff each coordinate is in the block's range on its axis. -/
theorem mem_blk6 (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v5_1).slice (win0_6.rect t)).set ↔ _
  rw [View.set_slice_whole, Rect.mem_set_unit]
  exact Iff.rfl

/-- Row `r` lies in the block of point `r / 2048`, which is written back. -/
theorem cover6 (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  have hN : cfg0.N = 64 := N_0
  have hlt : (i 0).val / 2048 < cfg0.N := by rw [hN]; omega
  refine ⟨⟨(i 0).val / 2048, hlt⟩, flush0_6 _, ?_⟩
  have e0 : win0_6.index ⟨(i 0).val / 2048, hlt⟩ (0 : Fin 2) = (i 0).val / 2048 := (idx_rows ⟨(i 0).val / 2048, hlt⟩).2.2.2.2.2.2.2.2.2.2.2.2.1
  have e1 : win0_6.index ⟨(i 0).val / 2048, hlt⟩ (1 : Fin 2) = 0 := (idx_rows ⟨(i 0).val / 2048, hlt⟩).2.2.2.2.2.2.2.2.2.2.2.2.2
  rw [mem_blk6]
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    rw [e0]; omega
  | ⟨1, _⟩ =>
    show win0_6.index ⟨(i 0).val / 2048, hlt⟩ (1 : Fin 2) * 128 ≤ (i 1).val ∧ (i 1).val < win0_6.index ⟨(i 0).val / 2048, hlt⟩ (1 : Fin 2) * 128 + 128
    rw [e1]; omega

/-- So the result array ends at the specification's array. -/
theorem final6 (c : Dev nD) : (dats m 0 c).arrAt 6 cfg0.N = cellG m c :=
  (dats m 0 c).arrAt_eq_of_cover 6 (cellG m c) (fun t _ => flushed6 m c t) cover6

/-! ## The run -/

/-- Every weakly fair execution of the kernel's program terminates with the two result arrays at the specification's
    arrays of the arguments as launched, and the arguments unchanged. -/
theorem run : θ_run defs (onTc (τ := τ) (main (F := Ideal))) ⟨m, fun _ => 0, ρ⟩ (fun r => ∀ c : Dev nD,
      r.2.mem ((c.tc : Thread nD τ).loc main_v5_0) = hiddenG m c
      ∧ r.2.mem ((c.tc : Thread nD τ).loc main_v5_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Lstm.Kernel

end
-- ==== Proof.RefSpec.lean ====
/-
  The reference program computes the LSTM cell of the specification, entry by entry, on the extended reals.

  The reference lays the four x-matrices side by side as one 128 x 512 matrix, the four h-matrices likewise, and the
  four biases end to end as one vector of length 512.  It multiplies the two batches by the two stacked matrices, adds
  the products, adds the stacked bias along every row, and cuts the 131072 x 512 result into four blocks of 128 columns,
  one per gate (input, forget, cell, output).  Column 128 * g + q of a stacked matrix is column q of matrix number g, and
  entry 128 * g + q of the stacked bias is entry q of bias number g; hence block g at row r, lane q is

      (sum_k x[r,k] * wx_g[k,q]  +  sum_k h[r,k] * wh_g[k,q])  +  b_g[q],

  the pre-activation `gatePre` of gate g.  The reference writes the logistic function out as 1 / (1 + exp (-p)) with the
  word 0x3F800000 for the number one; that is the definition of `Ideal.logistic`.  The new cell state is
  sigma(pre_f) * c + sigma(pre_i) * tanh(pre_g) and the new hidden state sigma(pre_o) * tanh(new cell state), which are
  `cellAt` and `hiddenAt`.  Nothing here uses finiteness.

  Order of the lemmas: the stacked operands read at a column of one piece (`v0_piece*`, `v2_piece*`); the stacked
  pre-activation at an index (`v8_at`); each gate's block (`pre_*`); the three logistic gates and the candidate
  (`sig_*`, `tanh_g`); the two results at an index (`cell_at`, `hidden_at`) and as arrays (`ref_cell`, `ref_hidden`).
-/
import proofs.«159898_j25812753449993_2_alg».proof.Proof.Gen.ReferenceIdeal.Read
import proofs.«159898_j25812753449993_2_alg».proof.Proof.Spec
import Idealize.ShloMosaic.Lib.Pipeline.Value
import Idealize.ShloMosaic.Lib.ValueIdx
import Idealize.ShloMosaic.PureOps.IdealRules

noncomputable section

open scoped BigOperators

namespace Cert.Lstm.Ref

open Cert.ReferenceIdeal Idealize.ShloMosaic Idealize.ShloMosaic.ValueIdx

/-- Column `q` of the four matrices laid side by side is column `q` of matrix number 0. -/
theorem v0_piece0 (x3 x4 x5 x6 : (⟨S128x128, .f32⟩ : BufTy).Contents (Elt Ideal)) (k q : Fin 128) (h : q.val < 512) :
    Read.val_main_v0 (F := Ideal) x3 x4 x5 x6 (ix2 k (⟨q.val, h⟩ : Fin 512)) = x3 (ix2 k q) := by
  unfold Read.val_main_v0
  exact concatenate_apply_piece (1 : Fin S128x512.rank) _ _ (ix2 k (⟨q.val, h⟩ : Fin 512)) 0 (by show (0 : Nat) < 4; omega)
    S128x128 x3 rfl rfl 0 rfl (ix2 k q)
    (fun b hb => match b, hb with
      | ⟨0, _⟩, _ => rfl
      | ⟨1, _⟩, hb => absurd rfl hb) (Nat.zero_add _)

/-- Column `128 + q` of the four matrices laid side by side is column `q` of matrix number 1. -/
theorem v0_piece1 (x3 x4 x5 x6 : (⟨S128x128, .f32⟩ : BufTy).Contents (Elt Ideal)) (k q : Fin 128) (h : 128 + q.val < 512) :
    Read.val_main_v0 (F := Ideal) x3 x4 x5 x6 (ix2 k (⟨128 + q.val, h⟩ : Fin 512)) = x4 (ix2 k q) := by
  unfold Read.val_main_v0
  exact concatenate_apply_piece (1 : Fin S128x512.rank) _ _ (ix2 k (⟨128 + q.val, h⟩ : Fin 512)) 1 (by show (1 : Nat) < 4; omega)
    S128x128 x4 rfl rfl 128 rfl (ix2 k q)
    (fun b hb => match b, hb with
      | ⟨0, _⟩, _ => rfl
      | ⟨1, _⟩, hb => absurd rfl hb) rfl

/-- Column `256 + q` of the four matrices laid side by side is column `q` of matrix number 2. -/
theorem v0_piece2 (x3 x4 x5 x6 : (⟨S128x128, .f32⟩ : BufTy).Contents (Elt Ideal)) (k q : Fin 128) (h : 256 + q.val < 512) :
    Read.val_main_v0 (F := Ideal) x3 x4 x5 x6 (ix2 k (⟨256 + q.val, h⟩ : Fin 512)) = x5 (ix2 k q) := by
  unfold Read.val_main_v0
  exact concatenate_apply_piece (1 : Fin S128x512.rank) _ _ (ix2 k (⟨256 + q.val, h⟩ : Fin 512)) 2 (by show (2 : Nat) < 4; omega)
    S128x128 x5 rfl rfl 256 rfl (ix2 k q)
    (fun b hb => match b, hb with
      | ⟨0, _⟩, _ => rfl
      | ⟨1, _⟩, hb => absurd rfl hb) rfl

/-- Column `384 + q` of the four matrices laid side by side is column `q` of matrix number 3. -/
theorem v0_piece3 (x3 x4 x5 x6 : (⟨S128x128, .f32⟩ : BufTy).Contents (Elt Ideal)) (k q : Fin 128) (h : 384 + q.val < 512) :
    Read.val_main_v0 (F := Ideal) x3 x4 x5 x6 (ix2 k (⟨384 + q.val, h⟩ : Fin 512)) = x6 (ix2 k q) := by
  unfold Read.val_main_v0
  exact concatenate_apply_piece (1 : Fin S128x512.rank) _ _ (ix2 k (⟨384 + q.val, h⟩ : Fin 512)) 3 (by show (3 : Nat) < 4; omega)
    S128x128 x6 rfl rfl 384 rfl (ix2 k q)
    (fun b hb => match b, hb with
      | ⟨0, _⟩, _ => rfl
      | ⟨1, _⟩, hb => absurd rfl hb) rfl

/-- Entry `q` of the four vectors laid end to end is entry `q` of vector number 0. -/
theorem v2_piece0 (x11 x12 x13 x14 : (⟨S128, .f32⟩ : BufTy).Contents (Elt Ideal)) (q : Fin 128) (h : q.val < 512) :
    Read.val_main_v2 (F := Ideal) x11 x12 x13 x14 (ix1 (⟨q.val, h⟩ : Fin 512)) = x11 (ix1 q) := by
  unfold Read.val_main_v2
  exact concatenate_apply_piece (0 : Fin S512.rank) _ _ (ix1 (⟨q.val, h⟩ : Fin 512)) 0 (by show (0 : Nat) < 4; omega)
    S128 x11 rfl rfl 0 rfl (ix1 q)
    (fun b hb => match b, hb with
      | ⟨0, _⟩, hb => absurd rfl hb) (Nat.zero_add _)

/-- Entry `128 + q` of the four vectors laid end to end is entry `q` of vector number 1. -/
theorem v2_piece1 (x11 x12 x13 x14 : (⟨S128, .f32⟩ : BufTy).Contents (Elt Ideal)) (q : Fin 128) (h : 128 + q.val < 512) :
    Read.val_main_v2 (F := Ideal) x11 x12 x13 x14 (ix1 (⟨128 + q.val, h⟩ : Fin 512)) = x12 (ix1 q) := by
  unfold Read.val_main_v2
  exact concatenate_apply_piece (0 : Fin S512.rank) _ _ (ix1 (⟨128 + q.val, h⟩ : Fin 512)) 1 (by show (1 : Nat) < 4; omega)
    S128 x12 rfl rfl 128 rfl (ix1 q)
    (fun b hb => match b, hb with
      | ⟨0, _⟩, hb => absurd rfl hb) rfl

/-- Entry `256 + q` of the four vectors laid end to end is entry `q` of vector number 2. -/
theorem v2_piece2 (x11 x12 x13 x14 : (⟨S128, .f32⟩ : BufTy).Contents (Elt Ideal)) (q : Fin 128) (h : 256 + q.val < 512) :
    Read.val_main_v2 (F := Ideal) x11 x12 x13 x14 (ix1 (⟨256 + q.val, h⟩ : Fin 512)) = x13 (ix1 q) := by
  unfold Read.val_main_v2
  exact concatenate_apply_piece (0 : Fin S512.rank) _ _ (ix1 (⟨256 + q.val, h⟩ : Fin 512)) 2 (by show (2 : Nat) < 4; omega)
    S128 x13 rfl rfl 256 rfl (ix1 q)
    (fun b hb => match b, hb with
      | ⟨0, _⟩, hb => absurd rfl hb) rfl

/-- Entry `384 + q` of the four vectors laid end to end is entry `q` of vector number 3. -/
theorem v2_piece3 (x11 x12 x13 x14 : (⟨S128, .f32⟩ : BufTy).Contents (Elt Ideal)) (q : Fin 128) (h : 384 + q.val < 512) :
    Read.val_main_v2 (F := Ideal) x11 x12 x13 x14 (ix1 (⟨384 + q.val, h⟩ : Fin 512)) = x14 (ix1 q) := by
  unfold Read.val_main_v2
  exact concatenate_apply_piece (0 : Fin S512.rank) _ _ (ix1 (⟨384 + q.val, h⟩ : Fin 512)) 3 (by show (3 : Nat) < 4; omega)
    S128 x14 rfl rfl 384 rfl (ix1 q)
    (fun b hb => match b, hb with
      | ⟨0, _⟩, hb => absurd rfl hb) rfl

/-- The second group of four matrices is laid side by side by the same operation as the first. -/
theorem v1_eq (x7 x8 x9 x10 : (⟨S128x128, .f32⟩ : BufTy).Contents (Elt Ideal)) :
    Read.val_main_v1 (F := Ideal) x7 x8 x9 x10 = Read.val_main_v0 (F := Ideal) x7 x8 x9 x10 := rfl

/-- The stacked pre-activation at row `r`, stacked column `c`: the two products against the stacked matrices, added,
    plus the stacked bias. -/
theorem v8_at (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (c : Fin 512) :
    Read.val_main_v8 (F := Ideal) x0 x1 x3 x4 x5 x6 x7 x8 x9 x10 x11 x12 x13 x14 (ix2 r c)
      = ((∑ k : Fin 128, x0 (ix2 r k) * Read.val_main_v0 (F := Ideal) x3 x4 x5 x6 (ix2 k c))
          + (∑ k : Fin 128, x1 (ix2 r k) * Read.val_main_v0 (F := Ideal) x7 x8 x9 x10 (ix2 k c)))
        + Read.val_main_v2 (F := Ideal) x11 x12 x13 x14 (ix1 c) := by
  have el3 : ∀ k : Fin 128, Read.lidx_main_v3 (ix2 r c) k = ix2 r k := fun k => funext fun a => by
    match a with
    | ⟨0, _⟩ => rfl
    | ⟨1, _⟩ => rfl
  have er3 : ∀ k : Fin 128, Read.ridx_main_v3 (ix2 r c) k = ix2 k c := fun k => funext fun a => by
    match a with
    | ⟨0, _⟩ => rfl
    | ⟨1, _⟩ => rfl
  have el4 : ∀ k : Fin 128, Read.lidx_main_v4 (ix2 r c) k = ix2 r k := fun k => funext fun a => by
    match a with
    | ⟨0, _⟩ => rfl
    | ⟨1, _⟩ => rfl
  have er4 : ∀ k : Fin 128, Read.ridx_main_v4 (ix2 r c) k = ix2 k c := fun k => funext fun a => by
    match a with
    | ⟨0, _⟩ => rfl
    | ⟨1, _⟩ => rfl
  have eb : Read.idx_main_v6 (Read.idx_main_v7 (ix2 r c)) = ix1 c := funext fun a => by
    match a with
    | ⟨0, _⟩ => rfl
  rw [Read.val_main_v8_apply, Read.val_main_v5_apply, Read.val_main_v3_apply, Read.val_main_v4_apply,
    Read.val_main_v7_apply, Read.val_main_v6_apply, eb, v1_eq]
  simp only [el3, er3, el4, er4]
  rfl

/-- The input gate's slice of the stacked pre-activation is that gate's pre-activation. -/
theorem pre_i (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v9 (F := Ideal) x0 x1 x3 x4 x5 x6 x7 x8 x9 x10 x11 x12 x13 x14 (ix2 r q) = gatePre x0 x1 x3 x7 x11 r q := by
  have hq : q.val < 512 := by have := q.isLt; omega
  have e : Read.idx_main_v9 (ix2 r q) = ix2 r (⟨q.val, hq⟩ : Fin 512) := funext fun a => by
    match a with
    | ⟨0, _⟩ => rfl
    | ⟨1, _⟩ => rfl
  rw [Read.val_main_v9_apply, e, v8_at]
  simp only [v0_piece0, v2_piece0]
  rfl

/-- The forget gate's slice of the stacked pre-activation is that gate's pre-activation. -/
theorem pre_f (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v10 (F := Ideal) x0 x1 x3 x4 x5 x6 x7 x8 x9 x10 x11 x12 x13 x14 (ix2 r q) = gatePre x0 x1 x4 x8 x12 r q := by
  have hq : 128 + q.val < 512 := by have := q.isLt; omega
  have e : Read.idx_main_v10 (ix2 r q) = ix2 r (⟨128 + q.val, hq⟩ : Fin 512) := funext fun a => by
    match a with
    | ⟨0, _⟩ => rfl
    | ⟨1, _⟩ => rfl
  rw [Read.val_main_v10_apply, e, v8_at]
  simp only [v0_piece1, v2_piece1]
  rfl

/-- The cell gate's slice of the stacked pre-activation is that gate's pre-activation. -/
theorem pre_g (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v11 (F := Ideal) x0 x1 x3 x4 x5 x6 x7 x8 x9 x10 x11 x12 x13 x14 (ix2 r q) = gatePre x0 x1 x5 x9 x13 r q := by
  have hq : 256 + q.val < 512 := by have := q.isLt; omega
  have e : Read.idx_main_v11 (ix2 r q) = ix2 r (⟨256 + q.val, hq⟩ : Fin 512) := funext fun a => by
    match a with
    | ⟨0, _⟩ => rfl
    | ⟨1, _⟩ => rfl
  rw [Read.val_main_v11_apply, e, v8_at]
  simp only [v0_piece2, v2_piece2]
  rfl

/-- The output gate's slice of the stacked pre-activation is that gate's pre-activation. -/
theorem pre_o (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v12 (F := Ideal) x0 x1 x3 x4 x5 x6 x7 x8 x9 x10 x11 x12 x13 x14 (ix2 r q) = gatePre x0 x1 x6 x10 x14 r q := by
  have hq : 384 + q.val < 512 := by have := q.isLt; omega
  have e : Read.idx_main_v12 (ix2 r q) = ix2 r (⟨384 + q.val, hq⟩ : Fin 512) := funext fun a => by
    match a with
    | ⟨0, _⟩ => rfl
    | ⟨1, _⟩ => rfl
  rw [Read.val_main_v12_apply, e, v8_at]
  simp only [v0_piece3, v2_piece3]
  rfl

/-- The word `0x3F800000` is the number one. -/
theorem one_f32 : Ideal.ofBits .f32 0x3F800000#32 = 1 := IdealRules.sign_bit.ideal_onePat .f32

/-- One divided by one plus the exponential of the negated argument is the logistic function. -/
theorem sigmoid_form (p : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf p)))
      = Ideal.logistic p := by
  show Ideal.div (Ideal.ofBits .f32 0x3F800000#32) (Ideal.ofBits .f32 0x3F800000#32 + Ideal.exp (-p)) = Ideal.logistic p
  rw [one_f32]
  rfl

/-- The input gate: the logistic function of its pre-activation. -/
theorem sig_i (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v18 (F := Ideal) x0 x1 x3 x4 x5 x6 x7 x8 x9 x10 x11 x12 x13 x14 (ix2 r q) = Ideal.logistic (gatePre x0 x1 x3 x7 x11 r q) := by
  rw [Read.val_main_v18_apply, Read.val_main_v17_apply, Read.val_main_cst_0_apply, Read.val_main_v16_apply,
    Read.val_main_v15_apply, Read.val_main_cst_apply, Read.val_main_v14_apply, Read.val_main_v13_apply, pre_i]
  exact sigmoid_form _

/-- The forget gate: the logistic function of its pre-activation. -/
theorem sig_f (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v24 (F := Ideal) x0 x1 x3 x4 x5 x6 x7 x8 x9 x10 x11 x12 x13 x14 (ix2 r q) = Ideal.logistic (gatePre x0 x1 x4 x8 x12 r q) := by
  rw [Read.val_main_v24_apply, Read.val_main_v23_apply, Read.val_main_cst_2_apply, Read.val_main_v22_apply,
    Read.val_main_v21_apply, Read.val_main_cst_1_apply, Read.val_main_v20_apply, Read.val_main_v19_apply, pre_f]
  exact sigmoid_form _

/-- The output gate: the logistic function of its pre-activation. -/
theorem sig_o (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v30 (F := Ideal) x0 x1 x3 x4 x5 x6 x7 x8 x9 x10 x11 x12 x13 x14 (ix2 r q) = Ideal.logistic (gatePre x0 x1 x6 x10 x14 r q) := by
  rw [Read.val_main_v30_apply, Read.val_main_v29_apply, Read.val_main_cst_4_apply, Read.val_main_v28_apply,
    Read.val_main_v27_apply, Read.val_main_cst_3_apply, Read.val_main_v26_apply, Read.val_main_v25_apply, pre_o]
  exact sigmoid_form _

/-- The candidate: the hyperbolic tangent of the cell gate's pre-activation. -/
theorem tanh_g (x0 x1 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v31 (F := Ideal) x0 x1 x3 x4 x5 x6 x7 x8 x9 x10 x11 x12 x13 x14 (ix2 r q) = Ideal.tanh (gatePre x0 x1 x5 x9 x13 r q) := by
  rw [Read.val_main_v31_apply, pre_g]
  rfl

/-- The new cell state at row `r`, lane `q`. -/
theorem cell_at (x0 x1 x2 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v34 (F := Ideal) x0 x1 x2 x3 x4 x5 x6 x7 x8 x9 x10 x11 x12 x13 x14 (ix2 r q) = cellAt x0 x1 x2 x3 x4 x5 x6 x7 x8 x9 x10 x11 x12 x13 x14 r q := by
  rw [Read.val_main_v34_apply, Read.val_main_v32_apply, Read.val_main_v33_apply, sig_f, sig_i, tanh_g]
  rfl

/-- The new hidden state at row `r`, lane `q`. -/
theorem hidden_at (x0 x1 x2 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) (r : Fin 131072) (q : Fin 128) :
    Read.val_main_v36 (F := Ideal) x0 x1 x2 x3 x4 x5 x6 x7 x8 x9 x10 x11 x12 x13 x14 (ix2 r q) = hiddenAt x0 x1 x2 x3 x4 x5 x6 x7 x8 x9 x10 x11 x12 x13 x14 r q := by
  rw [Read.val_main_v36_apply, Read.val_main_v35_apply, sig_o, cell_at]
  rfl

/-- The reference's new cell state is the specification's, entry by entry. -/
theorem ref_cell (x0 x1 x2 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) :
    Cert.ReferenceIdeal.Read.val_main_v34 (F := Ideal) x0 x1 x2 x3 x4 x5 x6 x7 x8 x9 x10 x11 x12 x13 x14
      = Cert.Lstm.cellArr x0 x1 x2 x3 x4 x5 x6 x7 x8 x9 x10 x11 x12 x13 x14 := by
  funext j
  obtain ⟨r, q, rfl⟩ : ∃ (r : Fin 131072) (q : Fin 128), j = ix2 r q := ⟨j 0, j 1, eq_ix2 j⟩
  exact cell_at x0 x1 x2 x3 x4 x5 x6 x7 x8 x9 x10 x11 x12 x13 x14 r q

/-- The reference's new hidden state is the specification's, entry by entry. -/
theorem ref_hidden (x0 x1 x2 : (⟨S131072x128, .f32⟩ : BufTy).Contents (Elt Ideal)) (x3 x4 x5 x6 x7 x8 x9 x10 : (⟨S128x128, .f32⟩ : BufTy).Contents (Elt Ideal)) (x11 x12 x13 x14 : (⟨S128, .f32⟩ : BufTy).Contents (Elt Ideal)) :
    Cert.ReferenceIdeal.Read.val_main_v36 (F := Ideal) x0 x1 x2 x3 x4 x5 x6 x7 x8 x9 x10 x11 x12 x13 x14
      = Cert.Lstm.hiddenArr x0 x1 x2 x3 x4 x5 x6 x7 x8 x9 x10 x11 x12 x13 x14 := by
  funext j
  obtain ⟨r, q, rfl⟩ : ∃ (r : Fin 131072) (q : Fin 128), j = ix2 r q := ⟨j 0, j 1, eq_ix2 j⟩
  exact hidden_at x0 x1 x2 x3 x4 x5 x6 x7 x8 x9 x10 x11 x12 x13 x14 r q

end Cert.Lstm.Ref

end
-- ==== Proof.lean ====
/-
  One step of an LSTM cell: a pipelined kernel against the plain array program.

  Both programs take a batch x of 131072 rows of width 128, the previous hidden state h and cell state c of the same
  shape, four 128 x 128 matrices that multiply x, four that multiply h, and four bias vectors.  For each of the four
  gates the pre-activation at row r and lane q is  sum_k x[r,k] wx[k,q] + sum_k h[r,k] wh[k,q] + b[q];  the new cell
  state is  sigma(f) c + sigma(i) tanh(g)  and the new hidden state  sigma(o) tanh(new cell state)  (Proof/Spec.lean).

  The plain program computes exactly that: two matrix products against the four matrices side by side, their sum, the
  broadcast bias, four column slices, sigma written out as 1 / (1 + exp(-.)) — which on the extended reals is the
  logistic function by definition —, and the pointwise products (Proof/RefSpec.lean, over the generated reading of its
  run one operation at a time).

  The kernel first stacks the eight matrices into one 256 x 512 matrix (x-matrices over h-matrices, gates side by side)
  and the biases into one 1 x 512 row, then runs 64 grid points; point t takes rows 2048 t .. 2048 t + 2047 of x, h
  and c, puts the x tile and the h tile side by side into a 2048 x 256 matrix, multiplies it with the stacked matrix in
  ONE product, adds the bias row, slices the four gates and applies the logistic function and tanh.  One product over
  256 terms is the two products over 128 terms added: the sum over k < 256 splits at 128, the first half meeting the
  x tile and the x-matrices, the second the h tile and the h-matrices (Proof/TilePayload.lean); addition on the
  extended reals is a commutative monoid, so no finiteness of the inputs is used, and the narrowing of the operands
  to sixteen bits before the product is the identity on exact values.  The stacked operands read at an index are the
  original matrices and biases (Proof/Stacked.lean, Proof/KernelBlocks.lean), a tile's rows are the batch's rows
  (Proof/KernelBlocks.lean), and the 64 tiles written back fill the two result arrays (Proof/KernelValue.lean).

  That the kernel's program runs to the end without a fault and leaves its arguments unchanged is
  Proof/KernelFrame.lean (as printed, at the word level) and Proof/KernelIdealFrame.lean (on exact values): the same
  text at two instances.  The idealization changed no operation, so there is nothing to preserve.
-/
import proofs.«159898_j25812753449993_2_alg».proof.Defs
import proofs.«159898_j25812753449993_2_alg».proof.Proof.Gen.Kernel
import proofs.«159898_j25812753449993_2_alg».proof.Proof.Gen.KernelIdeal
import proofs.«159898_j25812753449993_2_alg».proof.Proof.Gen.ReferenceIdeal
import proofs.«159898_j25812753449993_2_alg».proof.Proof.Gen.ReferenceIdeal.Run
import proofs.«159898_j25812753449993_2_alg».proof.Proof.Gen.ReferenceIdeal.Read
import proofs.«159898_j25812753449993_2_alg».proof.Proof.Gen.Pre_finite_inputs
import proofs.«159898_j25812753449993_2_alg».proof.Proof.KernelFrame
import proofs.«159898_j25812753449993_2_alg».proof.Proof.KernelIdealFrame
import proofs.«159898_j25812753449993_2_alg».proof.Proof.KernelValue
import proofs.«159898_j25812753449993_2_alg».proof.Proof.RefSpec

noncomputable section

namespace Cert.Proof

open Idealize.ShloMosaic Idealize.SL.Sem

/-- The kernel's program as printed runs and keeps its arguments. -/
theorem frame_k : Cert.frame_Kernel := fun m ρ _ => Cert.Kernel.Frame.frame m ρ

/-- The same program on exact values runs and keeps its arguments. -/
theorem frame_ki : Cert.frame_KernelIdeal := fun m ρ _ => Cert.KernelIdeal.Frame.frame m ρ

/-- The plain program runs and keeps its arguments: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the fifteen arguments both programs end with the specification's new hidden state and
    new cell state of those arguments. -/
theorem algebraic : Cert.algebraic_KernelIdeal_ReferenceIdeal := by
  intro m ρ m' ρ' _ hagree
  refine ⟨fun c => Cert.Lstm.Kernel.hiddenG m c, fun c => Cert.Lstm.Kernel.cellG m c, Cert.Lstm.Kernel.run m ρ, ?_⟩
  refine (θ_run Cert.ReferenceIdeal.defs _ _).mono (fun _ h c => ?_) (Cert.ReferenceIdeal.Value.run (F := Ideal) m' ρ')
  obtain ⟨h36, h34, hkept⟩ := h c
  obtain ⟨a0, a1, a2, a3, a4, a5, a6, a7, a8, a9, a10, a11, a12, a13, a14⟩ := hagree c
  refine ⟨h36.trans ?_, h34.trans ?_, hkept⟩
  · rw [Cert.ReferenceIdeal.Read.val_main_v36_eq, Cert.Lstm.Ref.ref_hidden, a0, a1, a2, a3, a4, a5, a6, a7, a8, a9, a10, a11, a12, a13, a14]
  · rw [Cert.ReferenceIdeal.Read.val_main_v34_eq, Cert.Lstm.Ref.ref_cell, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
